-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x64 : Shape := ⟨2, ![1024, 64]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 17
  | .vmem => 10
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x64, .f32⟩
  | .hbm, ⟨10, _⟩ => ⟨S_, .f32⟩
  | .hbm, ⟨11, _⟩ => ⟨S8192, .f32⟩
  | .hbm, ⟨12, _⟩ => ⟨S1x8192, .f32⟩
  | .hbm, ⟨13, _⟩ => ⟨S_, .f32⟩
  | .hbm, ⟨14, _⟩ => ⟨S1x8192, .f32⟩
  | .hbm, ⟨15, _⟩ => ⟨S1x8192, .f32⟩
  | .hbm, ⟨16, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192_S1x8192_1 : S8192.BroadcastsInDim S1x8192 (![1] : Fin 1 → Fin S1x8192.rank)
  bcast_S_S1x8192 : S_.BroadcastsInDim S1x8192 (![] : Fin 0 → Fin S1x8192.rank)
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x8192 : S_.BroadcastsInDim S8192x8192 (![] : Fin 0 → Fin S8192x8192.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.Consts.lean ====
/-
  The float literals the two programs spell, as the extended reals their bit patterns denote.
  The kernel scales x by 2.0 before its matrix product and its host prologue multiplies both
  squared norms by 1.0; the reference multiplies the product by 2.0 and the clamped distance
  by -1.0; both start their sums and clamp at 0.0; the precondition compares against +inf.
  Each is an exact dyadic value, so each pattern is a plain real number (or the top element).
-/
import Idealize.ShloMosaic.PureOps.Ideal
import Idealize.ShloMosaic.PureOps.Ideal.Laws

noncomputable section

namespace Cert.Rbf.Consts

open Idealize.ShloMosaic

/-- The pattern of `0.0` denotes the real number zero. -/
theorem zero : Ideal.ofBits .f32 0x00000000#32 = ((0 : ℝ) : EReal) := by
  rw [Ideal.ofBits_zero_f32, EReal.coe_zero]

/-- The pattern of `1.0` denotes the real number one. -/
theorem one : Ideal.ofBits .f32 0x3F800000#32 = ((1 : ℝ) : EReal) := by
  simp [Ideal.ofBits, Ideal.ieee, -EReal.coe_mul]; norm_num

/-- The pattern of `2.0` denotes the real number two. -/
theorem two : Ideal.ofBits .f32 0x40000000#32 = ((2 : ℝ) : EReal) := by
  simp [Ideal.ofBits, Ideal.ieee, -EReal.coe_mul]; norm_num

/-- The pattern of `-1.0` denotes the real number minus one. -/
theorem negOne : Ideal.ofBits .f32 0xBF800000#32 = ((-1 : ℝ) : EReal) := by
  simp [Ideal.ofBits, Ideal.ieee, -EReal.coe_mul]; norm_num

/-- The pattern of `+inf` denotes the top element. -/
theorem inf : Ideal.ofBits .f32 0x7F800000#32 = (⊤ : EReal) := by
  simp [Ideal.ofBits, Ideal.ieee]

end Cert.Rbf.Consts

end
-- ==== Proof.Rbf.lean ====
/-
  The Gaussian (RBF) kernel matrix of two families of 8192 points in 64 coordinates,
      out[n, m] = exp (-(‖x_n‖² - 2 ⟨x_n, y_m⟩ + ‖y_m‖²)) clamped so that the exponent is never positive,
  in the two arrangements the two programs compute, and the law that joins them.

  `gram` is the reference's arrangement: exp ((-1) · max ((‖x_n‖² - 2 · ⟨x_n, y_m⟩) + ‖y_m‖², 0)).
  `gramFolded` is the kernel's: the factor 2 is moved onto x before the inner product, the sign is
  folded into the clamp, exp (min ((⟨2 x_n, y_m⟩ - 1 · ‖x_n‖²) - 1 · ‖y_m‖², 0)).
  On real numbers the two agree: ⟨2 x, y⟩ = 2 ⟨x, y⟩ (the factor leaves the sum), and
  min (-z, 0) = - max (z, 0). On the extended reals neither step is safe at an infinity
  (∞ - ∞ and 0 · ∞ have conventional values), so the law is stated for arrays whose every
  entry is a real number, which is what the precondition says of the inputs.
-/
import Idealize.ShloMosaic.PureOps.Ideal
import Idealize.ShloMosaic.Lib.ValueIdx
import proofs.«171086_j65481071397592_2_alg».proof.Proof.Consts

noncomputable section

namespace Cert.Rbf

open Idealize.ShloMosaic Idealize.ShloMosaic.ValueIdx

/-- 8192 points of 64 coordinates each. -/
abbrev Pts : Shape := ⟨2, ![8192, 64]⟩
/-- One entry per pair of points. -/
abbrev Pairs : Shape := ⟨2, ![8192, 8192]⟩

/-- The squared norm of point `r`, summed from the literal `0.0` as both programs do. -/
def sqNorm (x : Pts.Idx → EReal) (r : Fin 8192) : EReal :=
  Ideal.ofBits .f32 0x00000000#32 + ∑ k : Fin 64, x (ix2 r k) * x (ix2 r k)

/-- The inner product of point `r` of `x` with point `s` of `y`. -/
def inner (x y : Pts.Idx → EReal) (r s : Fin 8192) : EReal :=
  ∑ k : Fin 64, x (ix2 r k) * y (ix2 s k)

/-- The reference's arrangement of the kernel matrix. -/
def gram (x y : Pts.Idx → EReal) : Pairs.Idx → EReal := fun i =>
  Ideal.exp (Ideal.ofBits .f32 0xBF800000#32 *
    max ((sqNorm x (i 0) - Ideal.ofBits .f32 0x40000000#32 * inner x y (i 0) (i 1)) + sqNorm y (i 1))
      (Ideal.ofBits .f32 0x00000000#32))

/-- The kernel's arrangement: x doubled before the product, both norms scaled by `1.0`, the sign inside the clamp. -/
def gramFolded (x y : Pts.Idx → EReal) : Pairs.Idx → EReal := fun i =>
  Ideal.exp (min
    (((∑ k : Fin 64, (Ideal.ofBits .f32 0x40000000#32 * x (ix2 (i 0) k)) * y (ix2 (i 1) k))
        - Ideal.ofBits .f32 0x3F800000#32 * sqNorm x (i 0))
      - Ideal.ofBits .f32 0x3F800000#32 * sqNorm y (i 1))
    (Ideal.ofBits .f32 0x00000000#32))

/-! ## Real numbers inside the extended reals -/

/-- A finite sum of real numbers, read in the extended reals, is the real sum. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem coe_min (a b : ℝ) : min (a : EReal) (b : EReal) = ((min a b : ℝ) : EReal) :=
  (EReal.coe_strictMono.monotone.map_min).symm

theorem coe_max (a b : ℝ) : max (a : EReal) (b : EReal) = ((max a b : ℝ) : EReal) :=
  (EReal.coe_strictMono.monotone.map_max).symm

/-! ## The law, on real numbers -/

/-- For real coordinates: doubling `a` inside the product doubles the product, scaling by one and starting
    from zero change nothing, and the minimum of `-z` and zero is minus the maximum of `z` and zero. -/
theorem folded_real (a b : Fin 64 → ℝ) :
    min (((∑ k : Fin 64, (2 * a k) * b k) - 1 * (0 + ∑ k : Fin 64, a k * a k)) - 1 * (0 + ∑ k : Fin 64, b k * b k)) 0
      = -1 * max (((0 + ∑ k : Fin 64, a k * a k) - 2 * ∑ k : Fin 64, a k * b k) + (0 + ∑ k : Fin 64, b k * b k)) 0 := by
  have h2 : (∑ k : Fin 64, (2 * a k) * b k) = 2 * ∑ k : Fin 64, a k * b k := by
    rw [Finset.mul_sum]; exact Finset.sum_congr rfl fun k _ => by ring
  rw [neg_one_mul, ← min_neg_neg, neg_zero, h2]
  congr 1
  ring

/-! ## The law, on arrays of real entries -/

/-- THE LAW: on arrays whose every entry is a real number the kernel's arrangement is the reference's. -/
theorem gramFolded_eq_gram (x y : Pts.Idx → EReal) (hx : ∀ j, ∃ r : ℝ, x j = r) (hy : ∀ j, ∃ r : ℝ, y j = r) :
    gramFolded x y = gram x y := by
  choose a ha using hx
  choose b hb using hy
  funext i
  unfold gramFolded gram sqNorm inner
  simp only [ha, hb, Consts.zero, Consts.one, Consts.two, Consts.negOne, ← EReal.coe_mul, coe_sum, ← EReal.coe_add,
    ← EReal.coe_sub, coe_min, coe_max, Ideal.exp_coe]
  exact congrArg (fun r : ℝ => ((Real.exp r : ℝ) : EReal)) (folded_real (fun k => a (ix2 (i 0) k)) (fun k => b (ix2 (i 1) k)))

end Cert.Rbf

end
-- ==== Proof.Finite.lean ====
/-
  What the precondition says: both input arrays hold real numbers only.

  The precondition is  all (|x| < +inf)  and  all (|y| < +inf).  The conjunction holding gives both
  halves; a reduction by "and" over every axis that came out true was true at every entry; and an
  extended real whose absolute value  max (v, -v)  lies strictly below the top element is neither
  infinity, hence a real number.
-/
import proofs.«171086_j65481071397592_2_alg».proof.Pre_finite_inputs
import proofs.«171086_j65481071397592_2_alg».proof.Proof.Gen.Pre_finite_inputs
import proofs.«171086_j65481071397592_2_alg».proof.Proof.Consts
import Idealize.ShloMosaic.PureOps.Ideal
import Idealize.ShloMosaic.Lib.ReduceAll
import Idealize.ShloMosaic.Lib.ValueIdx
import Idealize.ShloMosaic.Lib.Pipeline.Value

noncomputable section

namespace Cert.Rbf.Finite

open Idealize.ShloMosaic Cert.Pre_finite_inputs Cert.Pre_finite_inputs.Facts

/-- The rank-zero shape has one index. -/
instance : Subsingleton S_.Idx := ⟨fun a b => funext fun d => d.elim0⟩

/-- An extended real whose absolute value is strictly below the top element is a real number. -/
theorem real_of_abs_lt_top (v : EReal) (h : max v (-v) < ⊤) : ∃ r : ℝ, v = r := by
  induction v using EReal.rec with
  | bot => exact absurd h (by simp)
  | top => exact absurd h (by simp)
  | coe r => exact ⟨r, rfl⟩

/-- One entry of the comparison  |x| < +inf  being true makes that entry of `x` a real number. -/
theorem real_of_entry (x : FVec Ideal S8192x64 .f32) (j : S8192x64.Idx)
    (e : cmpf .olt (Host.absf x) (broadcastInDim S8192x64 ![] bcast_S_S8192x64 (constant (F := Ideal) S_ .f32 0x7F800000#32)) j = 1#1) :
    ∃ r : ℝ, x j = r := by
  have hb : broadcastInDim S8192x64 ![] bcast_S_S8192x64 (constant (F := Ideal) S_ .f32 0x7F800000#32) j = Ideal.ofBits .f32 0x7F800000#32 :=
    broadcastInDim_apply _ bcast_S_S8192x64 (constant (F := Ideal) S_ .f32 0x7F800000#32) j (fun a => a.elim0) (fun a => a.elim0)
  have e' : Ideal.cmp .olt (max (x j) (-(x j))) (broadcastInDim S8192x64 ![] bcast_S_S8192x64 (constant (F := Ideal) S_ .f32 0x7F800000#32) j) = 1#1 := e
  rw [hb, Consts.inf] at e'
  refine real_of_abs_lt_top (x j) ?_
  by_contra hn
  simp [Ideal.cmp, hn] at e'

/-- THE PRECONDITION READ: where `finite_inputs` holds, every entry of both arrays is a real number. -/
theorem entries_real (x y : FVec Ideal S8192x64 .f32) (h : fn (F := Ideal) x y = fun _ => 1#1) :
    (∀ j, ∃ r : ℝ, x j = r) ∧ (∀ j, ∃ r : ℝ, y j = r) := by
  have h0 := congrFun h ValueIdx.ix0
  dsimp only [fn] at h0
  obtain ⟨hx, hy⟩ := IntOp.andi_eq_one.1 h0
  exact ⟨fun j => real_of_entry x j (Host.reduce_andi_all _ _ _ _ _ hx j),
    fun j => real_of_entry y j (Host.reduce_andi_all _ _ _ _ _ hy j)⟩

end Cert.Rbf.Finite

end
-- ==== Proof.RefIsGram.lean ====
/-
  The reference computes `gram`: its result at the pair (n, m) is
      exp ((-1) · max ((‖x_n‖² - 2 · ⟨x_n, y_m⟩) + ‖y_m‖², 0)),
  read off its operations one at a time: the two row sums of squares are sums over the 64
  coordinates of a point, the matrix product contracts the coordinate axis of both operands, the
  broadcasts only repeat a row's or a column's value, and the rest is entrywise.
-/
import proofs.«171086_j65481071397592_2_alg».proof.Proof.Gen.ReferenceIdeal.Read
import proofs.«171086_j65481071397592_2_alg».proof.Proof.Rbf

noncomputable section

namespace Cert.Rbf.Ref

open Idealize.ShloMosaic Idealize.ShloMosaic.ValueIdx Cert.ReferenceIdeal Cert.ReferenceIdeal.Read

/-- The reference's last stage is the kernel matrix in the reference's arrangement. -/
theorem stage_eq_gram (x y : (⟨S8192x64, .f32⟩ : BufTy).Contents (Elt Ideal)) :
    val_main_v17 (F := Ideal) x y = Cert.Rbf.gram x y := by
  funext i
  -- the row of x behind the first squared norm, the row of y behind the second, and the two rows the product contracts
  have ex : ∀ k : Fin 64, idx_main_v1 (idx_main_v5 (idx_main_v8 i)) k = ix2 (i 0) k := fun k =>
    funext fun a => Fin.ext (by match a with | ⟨0, _⟩ => rfl | ⟨1, _⟩ => rfl)
  have ey : ∀ k : Fin 64, idx_main_v3 (idx_main_v10 (idx_main_v11 i)) k = ix2 (i 1) k := fun k =>
    funext fun a => Fin.ext (by match a with | ⟨0, _⟩ => rfl | ⟨1, _⟩ => rfl)
  have el : ∀ k : Fin 64, lidx_main_v4 i k = ix2 (i 0) k := fun k =>
    funext fun a => Fin.ext (by match a with | ⟨0, _⟩ => rfl | ⟨1, _⟩ => rfl)
  have er : ∀ k : Fin 64, ridx_main_v4 i k = ix2 (i 1) k := fun k =>
    funext fun a => Fin.ext (by match a with | ⟨0, _⟩ => rfl | ⟨1, _⟩ => rfl)
  rw [val_main_v17_apply, val_main_v16_apply, val_main_v15_apply, val_main_cst_3_apply, val_main_v14_apply,
    val_main_v13_apply, val_main_cst_2_apply, val_main_v12_apply, val_main_v9_apply, val_main_v8_apply,
    val_main_v5_apply, val_main_v1_apply, val_main_cst_apply, val_main_v7_apply, val_main_v6_apply,
    val_main_cst_1_apply, val_main_v4_apply, val_main_v11_apply, val_main_v10_apply, val_main_v3_apply,
    val_main_cst_0_apply]
  simp only [val_main_v0_apply, val_main_v2_apply, ex, ey, el, er, Ideal.hostUnary_exp_def, Ideal.mulf_def,
    Ideal.maximumf_def, Ideal.addf_def, Ideal.subf_def, Ideal.ofBits_def]
  rfl

end Cert.Rbf.Ref

end
-- ==== Proof.Norms.lean ====
/-
  What the kernel's two norm windows hold when the region starts.

  Before the region the host computes, from the argument arrays, a column  x2[n, 0] = 1 · ‖x_n‖²
  and a row  y2[0, m] = 1 · ‖y_m‖²  (a row sum of squares, laid out as a column or as a row by a
  broadcast that only renames the index, then scaled by the literal 1.0). The region stages these
  two arrays as its third and fourth windows.
-/
import proofs.«171086_j65481071397592_2_alg».proof.Proof.Gen.KernelIdeal.Frame
import proofs.«171086_j65481071397592_2_alg».proof.Proof.Rbf
import Idealize.ShloMosaic.Lib.Pipeline.Value
import Idealize.ShloMosaic.Lib.StableHlo.Run
import Idealize.ShloMosaic.Lib.ValueIdx
import Idealize.ShloMosaic.PureOps.Ideal.Laws

noncomputable section

namespace Cert.Rbf.Ker

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- A row sum of squares read at row `r`: the squared norm of point `r`. -/
theorem rowSq_apply (a : FVec Ideal S8192x64 .f32) (r : Fin 8192) :
    Host.reduceAdd (mulf a a) (constant (F := Ideal) S_ .f32 0x00000000#32) reducesTo_S8192x64_S8192_d1 h_S_ (ix1 r)
      = Cert.Rbf.sqNorm a r := by
  simp only [Host.reduceAdd, Ideal.hostReduceAdd_def]
  rw [Ideal.hostReduceAdd_single reducesTo_S8192x64_S8192_d1 (by decide)]
  unfold Cert.Rbf.sqNorm
  refine congrArg₂ (· + ·) rfl (Finset.sum_congr rfl fun k _ => ?_)
  rw [ValueIdx.mulf_apply]
  have e : ∀ j : S8192x64.Idx, (j 0).val = r.val → (j 1).val = k.val → j = ix2 r k := fun j h0 h1 =>
    funext fun d => Fin.ext (by match d with | ⟨0, _⟩ => exact h0 | ⟨1, _⟩ => exact h1)
  exact congrArg (fun j => a j * a j) (e _ rfl rfl)

/-- The column of scaled squared norms of `x`, as the region finds it: the host operations' term. -/
theorem V_main_v4 (c : Dev nD) : (V m c main_v4 : S8192x1.Idx → EReal)
    = mulf (broadcastInDim S8192x1 ![] bcast_S_S8192x1 (constant (F := Ideal) S_ .f32 0x3F800000#32))
        (broadcastInDim S8192x1 ![0] bcast_S8192_S8192x1_0
          (Host.reduceAdd (mulf (m ((c : Thread nD τ).loc main_arg0)) (m ((c : Thread nD τ).loc main_arg0)))
            (constant (F := Ideal) S_ .f32 0x00000000#32) reducesTo_S8192x64_S8192_d1 h_S_)) := by
  dsimp only [Gen.V, Gen.hostOps0]; after_results

/-- The row of scaled squared norms of `y`, as the region finds it: the host operations' term. -/
theorem V_main_v9 (c : Dev nD) : (V m c main_v9 : S1x8192.Idx → EReal)
    = mulf (broadcastInDim S1x8192 ![] bcast_S_S1x8192 (constant (F := Ideal) S_ .f32 0x3F800000#32))
        (broadcastInDim S1x8192 ![1] bcast_S8192_S1x8192_1
          (Host.reduceAdd (mulf (m ((c : Thread nD τ).loc main_arg1)) (m ((c : Thread nD τ).loc main_arg1)))
            (constant (F := Ideal) S_ .f32 0x00000000#32) reducesTo_S8192x64_S8192_d1 h_S_)) := by
  dsimp only [Gen.V, Gen.hostOps0]; after_results

/-- Entry `(n, 0)` of the column is `1 · ‖x_n‖²`. -/
theorem V_main_v4_apply (c : Dev nD) (j : S8192x1.Idx) (n : Fin 8192) (hn : (j 0).val = n.val) :
    (V m c main_v4 : S8192x1.Idx → EReal) j
      = Ideal.ofBits .f32 0x3F800000#32 * Cert.Rbf.sqNorm (m ((c : Thread nD τ).loc main_arg0)) n := by
  rw [V_main_v4, ValueIdx.mulf_apply,
    broadcastInDim_apply _ bcast_S_S8192x1 (constant (F := Ideal) S_ .f32 0x3F800000#32) j (fun a => a.elim0) (fun a => a.elim0),
    broadcastInDim_apply _ bcast_S8192_S8192x1_0 _ j (ix1 n) (fun a => match a with
      | ⟨0, _⟩ => by show n.val = if (8192 : Nat) = 1 then 0 else (j 0).val; rw [if_neg (by decide), hn]),
    rowSq_apply]
  rfl

/-- Entry `(0, m)` of the row is `1 · ‖y_m‖²`. -/
theorem V_main_v9_apply (c : Dev nD) (j : S1x8192.Idx) (n : Fin 8192) (hn : (j 1).val = n.val) :
    (V m c main_v9 : S1x8192.Idx → EReal) j
      = Ideal.ofBits .f32 0x3F800000#32 * Cert.Rbf.sqNorm (m ((c : Thread nD τ).loc main_arg1)) n := by
  rw [V_main_v9, ValueIdx.mulf_apply,
    broadcastInDim_apply _ bcast_S_S1x8192 (constant (F := Ideal) S_ .f32 0x3F800000#32) j (fun a => a.elim0) (fun a => a.elim0),
    broadcastInDim_apply _ bcast_S8192_S1x8192_1 _ j (ix1 n) (fun a => match a with
      | ⟨0, _⟩ => by show n.val = if (8192 : Nat) = 1 then 0 else (j 1).val; rw [if_neg (by decide), hn]),
    rowSq_apply]
  rfl

end Cert.Rbf.Ker

end
-- ==== Proof.Payload.lean ====
/-
  What the kernel body stores at entry (p, q) of its 1024 × 1024 output block, as a formula of the four
  blocks it loads: the rows `xb` of x and `yb` of y (1024 points each), the column `nx` of scaled squared
  norms of those rows of x, and the row `ny` of scaled squared norms of those rows of y:

      exp (min ((∑ₖ (2 · xb[p, k]) · yb[q, k] - nx[p, 0]) - ny[0, q], 0)).

  The matrix product into a zero accumulator contracts the coordinate axis of both operands, so it
  is the sum over the 64 coordinates; the narrowing of the operands to bf16 is the identity on
  extended reals; the two broadcasts repeat a column entry along its row and a row entry down its
  column; everything else is entrywise.
-/
import proofs.«171086_j65481071397592_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.Rbf.Ker

open Idealize.ShloMosaic Idealize.ShloMosaic.ValueIdx
open Cert.KernelIdeal Cert.KernelIdeal.Gen

/-- The left operand's index at output entry `i` and contraction index `q`: row `i 0`, … -/
theorem lhs_row (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide),
    dif_pos (show (0 : Fin S1024x64.rank) ∈ dot_S1024x64_S1024x64_S1024x1024_1_1_0_0_n_n.lhsNonContracting by decide)]
  rfl
/-- … coordinate `q`. -/
theorem lhs_coord (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
/-- The right operand's index: row `i 1`, … -/
theorem rhs_row (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide),
    dif_pos (show (0 : Fin S1024x64.rank) ∈ dot_S1024x64_S1024x64_S1024x1024_1_1_0_0_n_n.rhsNonContracting by decide)]
  rfl
/-- … coordinate `q`. -/
theorem rhs_coord (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The matrix product of two blocks of points into a zero accumulator, at entry (p, q): the inner product of
    row `p` of the left block with row `q` of the right one. -/
theorem product_apply (l r : FVec Ideal S1024x64 .bf16) (p q : Fin 1024) :
    matmul dot_S1024x64_S1024x64_S1024x1024_1_1_0_0_n_n none l r (constant (F := Ideal) S1024x1024 .f32 0x00000000#32) (ix2 p q)
      = ∑ k : Fin 64, l (ix2 p k) * r (ix2 q k) := by
  simp only [matmul]
  rw [Ideal.matmul_constant_zero_apply, ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 p q) ((contrEquiv1 dot_S1024x64_S1024x64_S1024x1024_1_1_0_0_n_n 64 rfl rfl).symm k) = ix2 p k :=
    funext fun a => Fin.ext (by
      match a with
      | ⟨0, _⟩ => exact lhs_row _ _
      | ⟨1, _⟩ => exact (lhs_coord _ _).trans hk)
  have er : dot_S1024x64_S1024x64_S1024x1024_1_1_0_0_n_n.rhsIdx (ix2 p q) ((contrEquiv1 dot_S1024x64_S1024x64_S1024x1024_1_1_0_0_n_n 64 rfl rfl).symm k) = ix2 q k :=
    funext fun a => Fin.ext (by
      match a with
      | ⟨0, _⟩ => exact rhs_row _ _
      | ⟨1, _⟩ => exact (rhs_coord _ _).trans hk)
  rw [el, er]

/-- A column repeated along its rows, at entry (p, q): the column's entry `p`. -/
theorem column_apply (v : Vec Ideal S1024x1 .f32) (p q : Fin 1024) :
    broadcastTo S1024x1024 (shapeCast S1024x1 v shapeCasts_S1024x1_S1024x1) broadcasts_S1024x1_S1024x1024 (ix2 p q)
      = v (ix2 p (0 : Fin 1)) := by
  rw [shapeCast_self]
  exact broadcastTo_apply v broadcasts_S1024x1_S1024x1024 (ix2 p q) (ix2 p (0 : Fin 1)) (fun a => match a with
    | ⟨0, _⟩ => by show p.val = if (1024 : Nat) = 1 then 0 else p.val; rw [if_neg (by decide)]
    | ⟨1, _⟩ => by show 0 = if (1 : Nat) = 1 then 0 else q.val; rw [if_pos rfl])

/-- A row repeated down its columns, at entry (p, q): the row's entry `q`. -/
theorem row_apply (v : Vec Ideal S1x1024 .f32) (p q : Fin 1024) :
    broadcastTo S1024x1024 (shapeCast S1x1024 v shapeCasts_S1x1024_S1x1024) broadcasts_S1x1024_S1024x1024 (ix2 p q)
      = v (ix2 (0 : Fin 1) q) := by
  rw [shapeCast_self]
  exact broadcastTo_apply v broadcasts_S1x1024_S1024x1024 (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])

/-- THE BODY'S VALUE at entry (p, q) of the block. -/
theorem pay_apply (xb yb : Vec Ideal S1024x64 .f32) (nx : Vec Ideal S1024x1 .f32) (ny : Vec Ideal S1x1024 .f32) (p q : Fin 1024) :
    k0_pay1 (F := Ideal) xb yb nx ny (ix2 p q)
      = Ideal.exp (min (((∑ k : Fin 64, (Ideal.ofBits .f32 0x40000000#32 * xb (ix2 p k)) * yb (ix2 q k)) - nx (ix2 p (0 : Fin 1)))
          - ny (ix2 (0 : Fin 1) q)) (Ideal.ofBits .f32 0x00000000#32)) := by
  show Ideal.exp (min
      ((matmul dot_S1024x64_S1024x64_S1024x1024_1_1_0_0_n_n none
          (truncf .bf16 (mulf (broadcast S1024x64 (Scalar.ofBits (F := Ideal) .f32 0x40000000#32)) xb) bitsLt_bf16_f32)
          (truncf .bf16 yb bitsLt_bf16_f32) (constant (F := Ideal) S1024x1024 .f32 0x00000000#32) (ix2 p q)
        - broadcastTo S1024x1024 (shapeCast S1024x1 nx shapeCasts_S1024x1_S1024x1) broadcasts_S1024x1_S1024x1024 (ix2 p q))
        - broadcastTo S1024x1024 (shapeCast S1x1024 ny shapeCasts_S1x1024_S1x1024) broadcasts_S1x1024_S1024x1024 (ix2 p q))
      (Ideal.ofBits .f32 0x00000000#32)) = _
  rw [product_apply, column_apply, row_apply]
  rfl

end Cert.Rbf.Ker

end
-- ==== Proof.Blocks.lean ====
/-
  From blocks to the whole array: after the kernel's run its result array is `gramFolded` of the two
  argument arrays.

  The grid has 8 × 8 points. At the point with block indices (I, J) the body is given rows
  1024·I … 1024·I + 1023 of x, rows 1024·J … 1024·J + 1023 of y, the matching 1024 entries of the
  column of squared norms of x and of the row of squared norms of y, and it writes the 1024 × 1024
  block (I, J) of the result. So entry (p, q) of that block is entry (1024·I + p, 1024·J + q) of the
  result, built from point 1024·I + p of x and point 1024·J + q of y: exactly `gramFolded` there.
  The 64 blocks tile the 8192 × 8192 result, so every entry is written by the point
  (n / 1024, m / 1024).
-/
import proofs.«171086_j65481071397592_2_alg».proof.Proof.Gen.KernelIdeal.Value
import proofs.«171086_j65481071397592_2_alg».proof.Proof.Norms
import proofs.«171086_j65481071397592_2_alg».proof.Proof.Payload
import proofs.«171086_j65481071397592_2_alg».proof.Proof.Rbf

noncomputable section

namespace Cert.Rbf.Ker

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem offsets_zero : (![0, 0] : Fin 2 → Nat) = fun _ => 0 := funext fun a => by fin_cases a <;> rfl

/-- The block indices of the five windows at a grid point, decided over the 64 points: x and its norms move with
    the result's row block, y and its norms with the result's column block, and nothing moves along the 64
    coordinates or along a unit axis. -/
theorem block_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every block of the result is some point's. -/
theorem block_onto : ∀ (q0 q1 : Fin 8), ∃ t : Fin cfg0.N, win0_4.index t = ![q0.val, q1.val] :=
  (by decide +kernel : ∀ (q0 q1 : Fin 8), ∃ t : Fin grid0.N, win0_4.index t = ![q0.val, q1.val])

/-- ONE ENTRY: the body's formula at entry (p, q), over blocks that hold point `i 0` of `X`, point `i 1` of `Y` and
    their scaled squared norms, is `gramFolded X Y` at `i`. -/
theorem entry_eq (X Y : Cert.Rbf.Pts.Idx → EReal) (xb yb : S1024x64.Idx → EReal) (nx : S1024x1.Idx → EReal) (ny : S1x1024.Idx → EReal)
    (p q : Fin 1024) (i : Cert.Rbf.Pairs.Idx)
    (hxb : ∀ k : Fin 64, xb (ix2 p k) = X (ix2 (i 0) k)) (hyb : ∀ k : Fin 64, yb (ix2 q k) = Y (ix2 (i 1) k))
    (hnx : nx (ix2 p (0 : Fin 1)) = Ideal.ofBits .f32 0x3F800000#32 * Cert.Rbf.sqNorm X (i 0))
    (hny : ny (ix2 (0 : Fin 1) q) = Ideal.ofBits .f32 0x3F800000#32 * Cert.Rbf.sqNorm Y (i 1)) :
    Ideal.exp (min (((∑ k : Fin 64, (Ideal.ofBits .f32 0x40000000#32 * xb (ix2 p k)) * yb (ix2 q k)) - nx (ix2 p (0 : Fin 1)))
        - ny (ix2 (0 : Fin 1) q)) (Ideal.ofBits .f32 0x00000000#32))
      = Cert.Rbf.gramFolded X Y i := by
  unfold Cert.Rbf.gramFolded
  simp only [hxb, hyb, hnx, hny]

/-- Row `p` of the block of x at point `t` is point `n` of x, where `n` is row `p` of the result's row block. -/
theorem xblock_apply (c : Dev nD) (t : Fin cfg0.N) (p : Fin 1024) (k : Fin 64) (n : Fin 8192)
    (hn : n.val = win0_4.index t (0 : Fin 2) * 1024 + 1 * p.val) :
    (iblk m c 0 t : Vec Ideal S1024x64 .f32) (ix2 p k) = (m ((c : Thread nD τ).loc main_arg0) : S8192x64.Idx → EReal) (ix2 n k) := by
  obtain ⟨e0, e1, -⟩ := block_indices t
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = n.val; omega
  | ⟨1, _⟩ => show win0_0.index t (1 : Fin 2) * 64 + 1 * k.val = k.val; omega

/-- Row `q` of the block of y at point `t` is point `n` of y, where `n` is column `q` of the result's column block. -/
theorem yblock_apply (c : Dev nD) (t : Fin cfg0.N) (q : Fin 1024) (k : Fin 64) (n : Fin 8192)
    (hn : n.val = win0_4.index t (1 : Fin 2) * 1024 + 1 * q.val) :
    (iblk m c 1 t : Vec Ideal S1024x64 .f32) (ix2 q k) = (m ((c : Thread nD τ).loc main_arg1) : S8192x64.Idx → EReal) (ix2 n k) := by
  obtain ⟨-, -, e0, e1, -⟩ := block_indices t
  show V m c main_arg1 (((cfg0.win 1).blk t).view.emb (ix2 q k)) = _
  rw [V_main_arg1]
  refine congrArg _ (funext fun a => Fin.ext ?_)
  match a with
  | ⟨0, _⟩ => show win0_1.index t (0 : Fin 2) * 1024 + 1 * q.val = n.val; omega
  | ⟨1, _⟩ => show win0_1.index t (1 : Fin 2) * 64 + 1 * k.val = k.val; omega

/-- Entry `p` of the block of the column of norms of x at point `t` is the scaled squared norm of point `n` of x. -/
theorem nxblock_apply (c : Dev nD) (t : Fin cfg0.N) (p : Fin 1024) (n : Fin 8192)
    (hn : n.val = win0_4.index t (0 : Fin 2) * 1024 + 1 * p.val) :
    (iblk m c 2 t : Vec Ideal S1024x1 .f32) (ix2 p (0 : Fin 1))
      = Ideal.ofBits .f32 0x3F800000#32 * Cert.Rbf.sqNorm (m ((c : Thread nD τ).loc main_arg0)) n := by
  obtain ⟨-, -, -, -, e0, e1, -⟩ := block_indices t
  show V m c main_v4 (((cfg0.win 2).blk t).view.emb (ix2 p (0 : Fin 1))) = _
  refine V_main_v4_apply m c _ n ?_
  show win0_2.index t (0 : Fin 2) * 1024 + 1 * p.val = n.val
  omega

/-- Entry `q` of the block of the row of norms of y at point `t` is the scaled squared norm of point `n` of y. -/
theorem nyblock_apply (c : Dev nD) (t : Fin cfg0.N) (q : Fin 1024) (n : Fin 8192)
    (hn : n.val = win0_4.index t (1 : Fin 2) * 1024 + 1 * q.val) :
    (iblk m c 3 t : Vec Ideal S1x1024 .f32) (ix2 (0 : Fin 1) q)
      = Ideal.ofBits .f32 0x3F800000#32 * Cert.Rbf.sqNorm (m ((c : Thread nD τ).loc main_arg1)) n := by
  obtain ⟨-, -, -, -, -, -, e0, e1, -⟩ := block_indices t
  show V m c main_v9 (((cfg0.win 3).blk t).view.emb (ix2 (0 : Fin 1) q)) = _
  refine V_main_v9_apply m c _ n ?_
  show win0_3.index t (1 : Fin 2) * 1024 + 1 * q.val = n.val
  omega

/-- WHAT POINT `t` WRITES BACK is block `t` of `gramFolded` of the argument arrays. -/
theorem flushed_eq (c : Dev nD) (t : Fin cfg0.N) :
    (dats m 0 c).flushed 4 t = ((cfg0.win 4).blk t).view.read (Elt Ideal)
      (Cert.Rbf.gramFolded (m ((c : Thread nD τ).loc main_arg0)) (m ((c : Thread nD τ).loc main_arg1))) := by
  rw [Value.flushed4]
  unfold out0_4
  rw [View.canon_unit_zero offsets_zero]
  simp only [View.ld_unit_zero (S := S1024x64) offsets_zero, View.ld_unit_zero (S := S1024x1) offsets_zero,
    View.ld_unit_zero (S := S1x1024) offsets_zero]
  funext j
  obtain ⟨p, q, rfl⟩ : ∃ (p q : Fin 1024), (j : S1024x1024.Idx) = ix2 p q := ⟨j 0, j 1, eq_ix2 (n0 := 1024) (n1 := 1024) j⟩
  show k0_pay1 (F := Ideal) (iblk m c 0 t) (iblk m c 1 t) (iblk m c 2 t) (iblk m c 3 t) (ix2 p q)
    = Cert.Rbf.gramFolded (m ((c : Thread nD τ).loc main_arg0)) (m ((c : Thread nD τ).loc main_arg1)) (((cfg0.win 4).blk t).view.emb (ix2 p q))
  refine (pay_apply (iblk m c 0 t) (iblk m c 1 t) (iblk m c 2 t) (iblk m c 3 t) p q).trans ?_
  exact entry_eq _ _ (iblk m c 0 t) (iblk m c 1 t) (iblk m c 2 t) (iblk m c 3 t) p q (((cfg0.win 4).blk t).view.emb (ix2 p q))
    (fun k => xblock_apply m c t p k _ rfl) (fun k => yblock_apply m c t q k _ rfl)
    (nxblock_apply m c t p _ rfl) (nyblock_apply m c t q _ rfl)

/-- An index of the result is in point `t`'s block iff each coordinate is in the block's range on its axis. -/
theorem mem_block (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v10).slice (win0_4.rect t)).set ↔ _
  rw [View.set_slice_whole, Rect.mem_set_unit]
  exact Iff.rfl

/-- THE COVER: entry (n, m) of the result lies in the block of the point with block indices (n / 1024, m / 1024). -/
theorem cover (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := block_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_block]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- THE ARRAY after the run: `gramFolded` of the argument arrays. -/
theorem final (c : Dev nD) : (dats m 0 c).arrAt 4 cfg0.N
    = Cert.Rbf.gramFolded (m ((c : Thread nD τ).loc main_arg0)) (m ((c : Thread nD τ).loc main_arg1)) :=
  (dats m 0 c).arrAt_eq_of_cover 4 _ (fun t _ => flushed_eq m c t) cover

/-- THE KERNEL'S RUN, READ: every weakly fair execution ends with the result array at `gramFolded` of the argument
    arrays and the argument arrays unchanged. -/
theorem run : θ_run defs (onTc (τ := τ) (main (F := Ideal))) ⟨m, fun _ => 0, ρ⟩ fun r => ∀ c : Dev nD,
      r.2.mem ((c : Thread nD τ).loc main_v10)
        = Cert.Rbf.gramFolded (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Rbf.Ker

end
-- ==== Proof.lean ====
/-
  The Gaussian (RBF) kernel matrix  out[n, m] = exp (-‖x_n - y_m‖²)  of two families of 8192 points in 64
  coordinates, computed through  ‖x_n‖² - 2 ⟨x_n, y_m⟩ + ‖y_m‖²  and clamped so that the exponent is never positive:
  a tiled kernel against a plain reference, equal on the extended reals whenever the inputs are finite.

  The reference computes  exp ((-1) · max ((‖x_n‖² - 2 · ⟨x_n, y_m⟩) + ‖y_m‖², 0))  (`Cert.Rbf.gram`).
  The kernel computes the two families of squared norms on the host, scaled by 1.0, and then, block by block over an
  8 × 8 grid of 1024 × 1024 blocks,  exp (min ((⟨2 x_n, y_m⟩ - ‖x_n‖²) - ‖y_m‖², 0))  (`Cert.Rbf.gramFolded`): the
  factor 2 sits on x before the matrix product, whose operands are narrowed to bf16 (the identity on extended reals),
  and the sign is folded into the clamp. On real numbers the two are one function, since the factor 2 leaves the sum
  and  min (-z, 0) = - max (z, 0);  at an infinity neither step is safe, and the precondition (every input entry
  finite) is what rules infinities out.

  The pieces: the law between the two arrangements (Proof/Rbf.lean); the precondition read as "every entry is a
  real number" (Proof/Finite.lean); the reference's operations read as `gram` (Proof/RefIsGram.lean); the kernel's
  host prologue, its body's formula at an entry, and the 64 blocks assembled into the whole array
  (Proof/Norms.lean, Proof/Payload.lean, Proof/Blocks.lean). Here they are put together. The three frame claims are
  the generated frames (the reference's is its generated run with the result forgotten), and the idealization
  rewrote no operation, so `preserves` has nothing to state.
-/
import proofs.«171086_j65481071397592_2_alg».proof.Defs
import proofs.«171086_j65481071397592_2_alg».proof.Proof.Gen.Kernel
import proofs.«171086_j65481071397592_2_alg».proof.Proof.Gen.Kernel.Skeleton
import proofs.«171086_j65481071397592_2_alg».proof.Proof.Gen.Kernel.Launch
import proofs.«171086_j65481071397592_2_alg».proof.Proof.Gen.Kernel.Points
import proofs.«171086_j65481071397592_2_alg».proof.Proof.Gen.Kernel.Frame
import proofs.«171086_j65481071397592_2_alg».proof.Proof.Gen.KernelIdeal
import proofs.«171086_j65481071397592_2_alg».proof.Proof.Gen.KernelIdeal.Skeleton
import proofs.«171086_j65481071397592_2_alg».proof.Proof.Gen.KernelIdeal.Launch
import proofs.«171086_j65481071397592_2_alg».proof.Proof.Gen.KernelIdeal.Points
import proofs.«171086_j65481071397592_2_alg».proof.Proof.Gen.KernelIdeal.Frame
import proofs.«171086_j65481071397592_2_alg».proof.Proof.Gen.ReferenceIdeal
import proofs.«171086_j65481071397592_2_alg».proof.Proof.Gen.Pre_finite_inputs
import proofs.«171086_j65481071397592_2_alg».proof.Proof.Gen.KernelIdeal.Value
import proofs.«171086_j65481071397592_2_alg».proof.Proof.Gen.ReferenceIdeal.Run
import proofs.«171086_j65481071397592_2_alg».proof.Proof.Gen.ReferenceIdeal.Read
import proofs.«171086_j65481071397592_2_alg».proof.Proof.Rbf
import proofs.«171086_j65481071397592_2_alg».proof.Proof.Finite
import proofs.«171086_j65481071397592_2_alg».proof.Proof.RefIsGram
import proofs.«171086_j65481071397592_2_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on x and y, both finite: the kernel ends with its result at `gramFolded x y`, the reference
    at `gram x y`, and on arrays of real entries these are one function. -/
theorem algebraic : Cert.algebraic_KernelIdeal_ReferenceIdeal := by
  intro m ρ m' ρ' hpre hagree
  refine ⟨fun c => Cert.Rbf.gramFolded (m ((c : Thread Cert.KernelIdeal.nD Cert.KernelIdeal.τ).loc Cert.KernelIdeal.main_arg0))
      (m ((c : Thread Cert.KernelIdeal.nD Cert.KernelIdeal.τ).loc Cert.KernelIdeal.main_arg1)), Cert.Rbf.Ker.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hy⟩ := Cert.Rbf.Finite.entries_real _ _ (hpre c)
  rw [Cert.ReferenceIdeal.Read.val_main_v17_eq, Cert.Rbf.Ref.stage_eq_gram, (hagree c).1, (hagree c).2]
  exact (Cert.Rbf.gramFolded_eq_gram _ _ hx hy).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
